-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x2 .f32) (main_arg5 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x128 : Shape := ⟨2, ![10000, 128]⟩
abbrev S10000x16 : Shape := ⟨2, ![10000, 16]⟩
abbrev S3300000x16 : Shape := ⟨2, ![3300000, 16]⟩
abbrev S1x16 : Shape := ⟨2, ![1, 16]⟩
abbrev S100000x2 : Shape := ⟨2, ![100000, 2]⟩
abbrev S10000x2 : Shape := ⟨2, ![10000, 2]⟩
abbrev S3300000x2 : Shape := ⟨2, ![3300000, 2]⟩
abbrev S1x2 : Shape := ⟨2, ![1, 2]⟩
abbrev S10000 : Shape := ⟨1, ![10000]⟩
abbrev S10000x1 : Shape := ⟨2, ![10000, 1]⟩

abbrev nBuf : Space → Nat
  | .hbm => 83
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x2, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x2, .f32⟩
  | .hbm, ⟨74, _⟩ => ⟨S3300000x1, .f32⟩
  | .hbm, ⟨75, _⟩ => ⟨S3300000x2, .f32⟩
  | .hbm, ⟨76, _⟩ => ⟨S3300000x2, .f32⟩
  | .hbm, ⟨77, _⟩ => ⟨S_, .f32⟩
  | .hbm, ⟨78, _⟩ => ⟨S100000x2, .f32⟩
  | .hbm, ⟨79, _⟩ => ⟨S3300000x1, .i32⟩
  | .hbm, ⟨80, _⟩ => ⟨S100000x2, .f32⟩
  | .hbm, ⟨81, _⟩ => ⟨S1x2, .f32⟩
  | .hbm, ⟨82, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x2, .f32⟩
  | .local _ .vmem, ⟨9, _⟩ => ⟨S10000x2, .f32⟩
  | .local _ .vmem, ⟨10, _⟩ => ⟨S10000x2, .f32⟩
  | .local _ .vmem, ⟨11, _⟩ => ⟨S10000x2, .f32⟩
  | .local _ .vmem, ⟨12, _⟩ => ⟨S10000x2, .f32⟩
  | .local _ .vmem, ⟨13, _⟩ => ⟨S1x2, .f32⟩
  | .local _ .vmem, ⟨14, _⟩ => ⟨S10000x2, .f32⟩
  | .local _ .vmem, ⟨15, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x2_S16x2_0_0 : ∀ a, (![0, 0] : Fin 2 → Nat) a + S16x2.size a ≤ S16x2.size a
  h_S16x2 : 0 < S16x2.numel
  inb_S10000x2_S10000x2_0_0 : ∀ a, (![0, 0] : Fin 2 → Nat) a + S10000x2.size a ≤ S10000x2.size a
  h_S10000x2 : 0 < S10000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x2_S10000x2_1_0_0_1_n_n_wf : DotDims.WF S10000x16 S16x2 S10000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x2.size a ≤ S16x2.size a
  hwx1_2 : ∀ i : grid1.Coords, EltTy.bits .f32 = 32 ∨ (Rect.block (s := S16x2) S16x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x2.size a ≤ S100000x2.size a
  hwx1_3 : ∀ i : grid1.Coords, EltTy.bits .f32 = 32 ∨ (Rect.block (s := S100000x2) S10000x2.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x2.size a ≤ S100000x2.size a
  hwx2_0 : ∀ i : grid2.Coords, EltTy.bits .f32 = 32 ∨ (Rect.block (s := S100000x2) S10000x2.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2.size a ≤ S1x2.size a
  hwx2_1 : ∀ i : grid2.Coords, EltTy.bits .f32 = 32 ∨ (Rect.block (s := S1x2) S1x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x2.size a ≤ S100000x2.size a
  hwx2_2 : ∀ i : grid2.Coords, EltTy.bits .f32 = 32 ∨ (Rect.block (s := S100000x2) S10000x2.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S10000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x2, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x2, .f32⟩
  | .hbm, ⟨79, _⟩ => ⟨S3300000x1, .f32⟩
  | .hbm, ⟨80, _⟩ => ⟨S3300000x2, .f32⟩
  | .hbm, ⟨81, _⟩ => ⟨S3300000x2, .f32⟩
  | .hbm, ⟨82, _⟩ => ⟨S_, .f32⟩
  | .hbm, ⟨83, _⟩ => ⟨S100000x2, .f32⟩
  | .hbm, ⟨84, _⟩ => ⟨S3300000x1, .i32⟩
  | .hbm, ⟨85, _⟩ => ⟨S100000x2, .f32⟩
  | .hbm, ⟨86, _⟩ => ⟨S1x2, .f32⟩
  | .hbm, ⟨87, _⟩ => ⟨S100000x2, .f32⟩
  | .hbm, ⟨88, _⟩ => ⟨S100000x2, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x2, .f32⟩
  | .hbm, ⟨96, _⟩ => ⟨S100000x2, .f32⟩
  | .hbm, ⟨97, _⟩ => ⟨S100000x2, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x2, .f32⟩
  | .hbm, ⟨103, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.KRun.lean ====
/-
  The kernel program's run with the final contents of EVERY unscoped buffer named: the program is eight segments
  (three stretches of host operations, then three kernel regions each followed or preceded by a stretch), the
  buffer contents at the segment boundaries are a fold from the launch memory, and after the last region each
  buffer holds the last boundary's contents. The launch over the segments is the one the frame uses; only the
  reading of the final state is kept whole here instead of being narrowed to the arguments.
-/
import proofs.«153009_j22462678958350_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, and in the final state every
    unscoped buffer of every core holds the last segment boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.KRun

end
-- ==== Proof.Rows.lean ====
/-
  One row of each dense stage, over the extended reals: a row of a matrix product Σ_k f k · g k; a row of
  relu(·) · W, Σ_k max (f k) 0 · g k; and a row of log_softmax, f q − M − log Σ_k exp (f k − M) with M the running
  maximum of the row started from −∞. The zero and −∞ are kept as the float words the programs spell; the two
  facts used about them are that the zero word is 0 and that the running maximum is at least its start.
-/
import Idealize.ShloMosaic.PureOps.Ideal
import Idealize.ShloMosaic.PureOps.Ideal.Laws

noncomputable section

open scoped BigOperators

namespace Cert.Rows

open Idealize.ShloMosaic

/-- The word of +0.0 read as an extended real. -/
def zero32 : Ideal .f32 := Ideal.ofBits .f32 0x00000000#32
/-- The word of −∞ read as an extended real. -/
def negInf32 : Ideal .f32 := Ideal.ofBits .f32 0xFF800000#32

theorem zero32_eq : zero32 = 0 := Ideal.ofBits_zero_f32

/-- A row of A · B: the row `f` of A against the column `g` of B. -/
def dotRow {K : ℕ} (f g : Fin K → Ideal .f32) : Ideal .f32 := ∑ k : Fin K, f k * g k

/-- A row of relu(A) · B. -/
def reluDotRow {K : ℕ} (f g : Fin K → Ideal .f32) : Ideal .f32 := ∑ k : Fin K, max (f k) zero32 * g k

/-- The maximum of a row, folded from −∞. -/
def rowMax {n : ℕ} (f : Fin n → Ideal .f32) : Ideal .f32 := (Finset.univ : Finset (Fin n)).fold max negInf32 f

/-- The running maximum never falls below its start. -/
theorem negInf_le_rowMax {n : ℕ} (f : Fin n → Ideal .f32) : negInf32 ≤ rowMax f :=
  (Finset.le_fold_max negInf32).2 (Or.inl le_rfl)

theorem max_negInf_rowMax {n : ℕ} (f : Fin n → Ideal .f32) : max negInf32 (rowMax f) = rowMax f :=
  max_eq_right (negInf_le_rowMax f)

/-- A row of log_softmax at column `q`. -/
def lsmRow {n : ℕ} (f : Fin n → Ideal .f32) (q : Fin n) : Ideal .f32 :=
  (f q - rowMax f) - Ideal.log (∑ k : Fin n, Ideal.exp (f k - rowMax f))

end Cert.Rows

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.LibKeepdims.lean ====
/-
  Row sums kept as a column, read at an index given by coordinates.

  `jnp.sum(x, axis=1, keepdims=True)` of a matrix `[a, b]` is, in a kernel, a lane reduction `[a, b] → [a]`
  followed by a cast `[a] → [a, 1]`; adding such a column to an `[a, c]` matrix broadcasts it `[a, 1] → [a, c]`.
  Read at `(p, q)` the composite is the sum over the row `p`, whatever `q`: the three lemmas below are the three steps,
  each with its indices written by coordinates, and `rowSum_bcast_apply` / `rowSum_bcastRow_apply` are the two composites
  a pairwise-distance kernel uses (the row norms of the left operand down the columns, those of the right operand
  along the rows).
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane reduction by addition of an `[a, b]` matrix along its rows, at the ideal values and read at row `r`: the sum
    over the row. The accumulator's word is the neutral one, so it contributes nothing. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- Row sums kept as a column and broadcast along the rows: at `(p, c)`, the sum over row `p`. -/
theorem rowSum_bcast_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, n]⟩)
    (p : Fin a) (c : Fin n) :
    broadcastTo ⟨2, ![a, n]⟩ (shapeCast ⟨2, ![a, 1]⟩ (multiReduction .add [1] ⟨1, ![a]⟩ src acc h hφ hacc) hc) hb (ix2 p c)
      = ∑ k : Fin b, src (ix2 p k) :=
  (broadcastTo_a1_ab_apply _ hb p c).trans
    ((shapeCast_a_a1_apply _ hc p 0).trans (multiReduction_add_rows_apply src acc h hφ hacc p))

/-- Row sums laid out as one row `[1, a]` and broadcast down the columns: at `(p, c)`, the sum over row `c` of the
    source. -/
theorem rowSum_bcastRow_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![1, a]⟩) (hb : (⟨2, ![1, a]⟩ : Shape).Broadcasts ⟨2, ![n, a]⟩)
    (p : Fin n) (c : Fin a) :
    broadcastTo ⟨2, ![n, a]⟩ (shapeCast ⟨2, ![1, a]⟩ (multiReduction .add [1] ⟨1, ![a]⟩ src acc h hφ hacc) hc) hb (ix2 p c)
      = ∑ k : Fin b, src (ix2 c k) :=
  (broadcastTo_1b_ab_apply _ hb p c).trans
    ((shapeCast_a_1a_apply _ hc 0 c).trans (multiReduction_add_rows_apply src acc h hφ hacc c))

end Idealize.ShloMosaic.ValueIdx

end
-- ==== Proof.Payloads.lean ====
/-
  What each kernel body computes, read at one entry (p, q) of its output block as a row function (Rows.lean) of the
  rows of its input blocks. Changes of float format are the identity on the extended reals, so the first body is the
  product row of x's row p and W1's column q; the second the relu-product row of a(p, ·) + b against W2's column q;
  the third the log_softmax row of a(p, ·) + b at q — its row maximum a fold from −∞, kept as a column and spread
  back, its row sum a lane sum from the zero word.
-/
import proofs.«153009_j22462678958350_1_alg».proof.Proof.Gen.KernelIdeal.Skeleton
import proofs.«153009_j22462678958350_1_alg».proof.Proof.Rows
import proofs.«153009_j22462678958350_1_alg».proof.Proof.LibMatmulNN
import proofs.«153009_j22462678958350_1_alg».proof.Proof.LibHostKeepdims
import proofs.«153009_j22462678958350_1_alg».proof.Proof.LibKeepdims
import Idealize.ShloMosaic.Lib.ValueIdx
import Idealize.ShloMosaic.Lib.ValueLayout
import Idealize.ShloMosaic.Lib.Pipeline.Value

noncomputable section

open scoped BigOperators

namespace Cert.Payloads

open Cert.KernelIdeal Cert.KernelIdeal.Gen Idealize.ShloMosaic Idealize.ShloMosaic.ValueIdx Cert.Rows

/-- The first body: a block of x times W1. -/
theorem pay0_apply (v0 : Vec Ideal S10000x128 .f32) (v2 : Vec Ideal S128x16 .f32) (p : Fin 10000) (q : Fin 16) :
    k0_pay1 (F := Ideal) v0 v2 (ix2 p q) = dotRow (fun k : Fin 128 => v0 (ix2 p k)) (fun k => v2 (ix2 k q)) := by
  unfold k0_pay1 dotRow
  exact Cert.LibMatmulNN.matmul_nn_apply dot_S10000x128_S128x16_S10000x16_1_0_0_1_n_n rfl rfl rfl rfl rfl rfl none _ _ p q

/-- The second body: relu(a + b) times W2 on a block of rows. -/
theorem pay1_apply (v0 : Vec Ideal S10000x16 .f32) (v2 : Vec Ideal S1x16 .f32) (v9 : Vec Ideal S16x2 .f32)
    (p : Fin 10000) (q : Fin 2) :
    k1_pay1 (F := Ideal) v0 v2 v9 (ix2 p q)
      = reluDotRow (fun k : Fin 16 => v0 (ix2 p k) + v2 (ix2 (0 : Fin 1) k)) (fun k => v9 (ix2 k q)) := by
  unfold k1_pay1 reluDotRow
  refine (Cert.LibMatmulNN.matmul_nn_apply dot_S10000x16_S16x2_S10000x2_1_0_0_1_n_n rfl rfl rfl rfl rfl rfl none _ _ p q).trans ?_
  refine Finset.sum_congr rfl fun k _ => ?_
  show max (shapeCast S10000x16 v0 shapeCasts_S10000x16_S10000x16 (ix2 p k)
        + broadcastTo S10000x16 (shapeCast S1x16 v2 shapeCasts_S1x16_S1x16) broadcasts_S1x16_S10000x16 (ix2 p k))
      zero32 * v9 (ix2 k q) = _
  rw [shapeCast_self, shapeCast_self, broadcastTo_1b_ab_apply]

/-- The kernel's log_softmax of a block `z`, by its operations. -/
def lsmBlock (z : FVec Ideal S10000x2 .f32) : FVec Ideal S10000x2 .f32 :=
  subf (subf z (broadcastTo S10000x2 (shapeCast S10000x1 (multiReduction .maximumf [1] S10000 z 0xFF800000#32 reduces_S10000x2_S10000 (.inl rfl) rfl) shapeCasts_S10000_S10000x1) broadcasts_S10000x1_S10000x2))
    (broadcastTo S10000x2 (log (shapeCast S10000x1 (multiReduction .add [1] S10000
      (exp (subf z (broadcastTo S10000x2 (shapeCast S10000x1 (multiReduction .maximumf [1] S10000 z 0xFF800000#32 reduces_S10000x2_S10000 (.inl rfl) rfl) shapeCasts_S10000_S10000x1) broadcasts_S10000x1_S10000x2)))
      0x00000000#32 reduces_S10000x2_S10000 (.inl rfl) rfl) shapeCasts_S10000_S10000x1)) broadcasts_S10000x1_S10000x2)

/-- The block's row maximum spread over the columns is the row's maximum from −∞. -/
theorem blockMax_apply (z : FVec Ideal S10000x2 .f32) (p : Fin 10000) (c : Fin 2) :
    broadcastTo S10000x2 (shapeCast S10000x1 (multiReduction .maximumf [1] S10000 z 0xFF800000#32 reduces_S10000x2_S10000 (.inl rfl) rfl) shapeCasts_S10000_S10000x1) broadcasts_S10000x1_S10000x2 (ix2 p c)
      = rowMax (fun k : Fin 2 => z (ix2 p k)) := by
  rw [broadcastTo_a1_ab_apply, shapeCast_a_a1_apply]
  exact multiReduction_maximumf_rows_apply z _ reduces_S10000x2_S10000 (.inl rfl) rfl p

theorem lsmBlock_apply (z : FVec Ideal S10000x2 .f32) (p : Fin 10000) (q : Fin 2) :
    lsmBlock z (ix2 p q) = lsmRow (fun k : Fin 2 => z (ix2 p k)) q := by
  unfold lsmBlock lsmRow
  rw [subf_apply, subf_apply, blockMax_apply, broadcastTo_a1_ab_apply]
  show (z (ix2 p q) - rowMax (fun k : Fin 2 => z (ix2 p k))) - Ideal.log (shapeCast S10000x1 (multiReduction .add [1] S10000
      (exp (subf z (broadcastTo S10000x2 (shapeCast S10000x1 (multiReduction .maximumf [1] S10000 z 0xFF800000#32 reduces_S10000x2_S10000 (.inl rfl) rfl) shapeCasts_S10000_S10000x1) broadcasts_S10000x1_S10000x2)))
      0x00000000#32 reduces_S10000x2_S10000 (.inl rfl) rfl) shapeCasts_S10000_S10000x1 (ix2 p (0 : Fin 1))) = _
  rw [shapeCast_a_a1_apply]
  refine congrArg (fun s => (z (ix2 p q) - rowMax (fun k : Fin 2 => z (ix2 p k))) - Ideal.log s)
    ((multiReduction_add_rows_apply _ _ reduces_S10000x2_S10000 (.inl rfl) rfl p).trans (Finset.sum_congr rfl fun k _ => ?_))
  show Ideal.exp (z (ix2 p k) - broadcastTo S10000x2 (shapeCast S10000x1 (multiReduction .maximumf [1] S10000 z 0xFF800000#32 reduces_S10000x2_S10000 (.inl rfl) rfl) shapeCasts_S10000_S10000x1) broadcasts_S10000x1_S10000x2 (ix2 p k)) = _
  rw [blockMax_apply]

/-- The third body: log_softmax(a + b) on a block of rows. -/
theorem pay2_apply (v0 : Vec Ideal S10000x2 .f32) (v2 : Vec Ideal S1x2 .f32) (p : Fin 10000) (q : Fin 2) :
    k2_pay1 (F := Ideal) v0 v2 (ix2 p q) = lsmRow (fun k : Fin 2 => v0 (ix2 p k) + v2 (ix2 (0 : Fin 1) k)) q := by
  have e : k2_pay1 (F := Ideal) v0 v2
      = lsmBlock (addf (shapeCast S10000x2 v0 shapeCasts_S10000x2_S10000x2) (broadcastTo S10000x2 (shapeCast S1x2 v2 shapeCasts_S1x2_S1x2) broadcasts_S1x2_S10000x2)) := rfl
  rw [e, lsmBlock_apply]
  refine congrArg (fun f => lsmRow f q) (funext fun k => ?_)
  rw [addf_apply, shapeCast_self, shapeCast_self, broadcastTo_1b_ab_apply]

end Cert.Payloads

end
-- ==== Proof.Spec.lean ====
/-
  The graph-convolution network both programs compute, stage by stage, as functions of whole arrays.

  With N = 100000 nodes, E = 3200000 edges and one self-loop per node appended (3300000 edge slots):
  * `srcIdx e`, `dstIdx e`: the two endpoint lists of the edge array `e`, each followed by 0 … N-1;
  * `dinv d`: deg^(-1/2) of the in-degree (a scatter-add of ones over `d`), 0 where the degree is not positive;
  * `normOf s d`: the per-edge weight dinv[s] · dinv[d];
  * `agg16 s d n h`, `agg2 s d n h`: gather the rows h[s], scale row t by n t, scatter-add them at the rows d
    (a normalised neighbourhood sum), for 16 and for 2 feature columns;
  * `lin1 x w` = x · w; `hidden a b w` = relu(a + b) · w with the bias row b spread over the rows;
  * `logSoftmaxBias a b`: z = a + b, then z − max_row z − log Σ_row exp(z − max_row z).
  `network` composes them: log_softmax(Â · relu(Â · (x W1) + b1) W2 + b2) with Â the normalised adjacency.
  The gather, the scatter and the index arithmetic are never opened: both programs apply the same ones to the
  same operands, so they stay names here.
-/
import proofs.«153009_j22462678958350_1_alg».proof.Proof.Gen.ReferenceIdeal
import Idealize.ShloMosaic.PureOps.Ideal

noncomputable section

namespace Cert.Spec

open Cert.ReferenceIdeal Cert.ReferenceIdeal.Gen Idealize.ShloMosaic

variable {F : FTy → Type} [FloatOps F]

/-- The source endpoints of the edges, then 0 … N-1 for the self-loops. -/
def srcIdx (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The destination endpoints of the edges, then 0 … N-1 for the self-loops. -/
def dstIdx (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- An index list as the one-column table a gather reads: a negative entry first moved up by N. -/
def wrapIdx (s : (⟨S3300000, .i32⟩ : BufTy).Contents (Elt F)) : (⟨S3300000x1, .i32⟩ : BufTy).Contents (Elt F) :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- An index list as the one-column table a scatter reads. -/
def colIdx (d : (⟨S3300000, .i32⟩ : BufTy).Contents (Elt F)) : (⟨S3300000x1, .i32⟩ : BufTy).Contents (Elt F) :=
  broadcastInDim S3300000x1 ![0] bcast_S3300000_S3300000x1_0 d

/-- The in-degree of every node: ones scatter-added at the destinations. -/
def deg (d : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant (F := F) S_ .f32 0x00000000#32)) (colIdx d)
    (broadcastInDim S3300000 ![] bcast_S_S3300000 (constant (F := F) S_ .f32 0x3F800000#32))

/-- Where the degree is positive. -/
def degMask (d : (⟨S3300000, .i32⟩ : BufTy).Contents (Elt F)) : (⟨S100000, .i1⟩ : BufTy).Contents (Elt F) :=
  cmpf .ogt (deg (F := F) d) (broadcastInDim S100000 ![] bcast_S_S100000 (constant (F := F) S_ .f32 0x00000000#32))

/-- deg^(-1/2), taken everywhere. -/
def rdeg (d : (⟨S3300000, .i32⟩ : BufTy).Contents (Elt F)) : (⟨S100000, .f32⟩ : BufTy).Contents (Elt F) :=
  Host.rsqrt (deg (F := F) d)

/-- The scalar zero. -/
def zeroS : (⟨S_, .f32⟩ : BufTy).Contents (Elt F) := constant (F := F) S_ .f32 0x00000000#32

/-- `a` where the mask holds, the scalar `z` elsewhere. -/
def whereSel (p : (⟨S100000, .i1⟩ : BufTy).Contents (Elt F)) (a : (⟨S100000, .f32⟩ : BufTy).Contents (Elt F))
    (z : (⟨S_, .f32⟩ : BufTy).Contents (Elt F)) : (⟨S100000, .f32⟩ : BufTy).Contents (Elt F) :=
  select p a (broadcastInDim S100000 ![] bcast_S_S100000 z)

/-- deg^(-1/2) where the degree is positive, 0 elsewhere. -/
def dinv (d : (⟨S3300000, .i32⟩ : BufTy).Contents (Elt F)) : (⟨S100000, .f32⟩ : BufTy).Contents (Elt F) :=
  whereSel (degMask (F := F) d) (rdeg (F := F) d) (zeroS (F := F))

/-- The per-edge weight from a given dinv array: dinv at the source times dinv at the destination. -/
def normOf' (dv : (⟨S100000, .f32⟩ : BufTy).Contents (Elt F)) (s d : (⟨S3300000, .i32⟩ : BufTy).Contents (Elt F)) :
    (⟨S3300000, .f32⟩ : BufTy).Contents (Elt F) :=
  mulf (Host.gather gather_S100000_S3300000x1_S3300000_n_0_n_n_0_1_1 dv (wrapIdx s))
    (Host.gather gather_S100000_S3300000x1_S3300000_n_0_n_n_0_1_1 dv (wrapIdx d))

/-- The symmetric normalisation of every edge: dinv at its source times dinv at its destination. -/
def normOf (s d : (⟨S3300000, .i32⟩ : BufTy).Contents (Elt F)) : (⟨S3300000, .f32⟩ : BufTy).Contents (Elt F) :=
  normOf' (dinv (F := F) d) s d

/-- Rows of `h` gathered at the sources, row t scaled by `n t`, scatter-added at the destinations: 16 columns. -/
def agg16 (s d : (⟨S3300000, .i32⟩ : BufTy).Contents (Elt F)) (n : (⟨S3300000, .f32⟩ : BufTy).Contents (Elt F))
    (h : (⟨S100000x16, .f32⟩ : BufTy).Contents (Elt F)) : (⟨S100000x16, .f32⟩ : BufTy).Contents (Elt F) :=
  Host.scatterAdd scatter_S100000x16_S3300000x1_S3300000x16_1_0_0_1
    (broadcastInDim S100000x16 ![] bcast_S_S100000x16 (constant (F := F) S_ .f32 0x00000000#32)) (colIdx d)
    (mulf (Host.gather gather_S100000x16_S3300000x1_S3300000x16_1_0_n_n_0_1_116 h (wrapIdx s))
      (broadcastInDim S3300000x16 ![0, 1] bcast_S3300000x1_S3300000x16_0_1 (broadcastInDim S3300000x1 ![0] bcast_S3300000_S3300000x1_0 n)))

/-- The same neighbourhood sum for 2 columns. -/
def agg2 (s d : (⟨S3300000, .i32⟩ : BufTy).Contents (Elt F)) (n : (⟨S3300000, .f32⟩ : BufTy).Contents (Elt F))
    (h : (⟨S100000x2, .f32⟩ : BufTy).Contents (Elt F)) : (⟨S100000x2, .f32⟩ : BufTy).Contents (Elt F) :=
  Host.scatterAdd scatter_S100000x2_S3300000x1_S3300000x2_1_0_0_1
    (broadcastInDim S100000x2 ![] bcast_S_S100000x2 (constant (F := F) S_ .f32 0x00000000#32)) (colIdx d)
    (mulf (Host.gather gather_S100000x2_S3300000x1_S3300000x2_1_0_n_n_0_1_12 h (wrapIdx s))
      (broadcastInDim S3300000x2 ![0, 1] bcast_S3300000x1_S3300000x2_0_1 (broadcastInDim S3300000x1 ![0] bcast_S3300000_S3300000x1_0 n)))

/-- The first linear map: x · W1. -/
def lin1 (x : (⟨S100000x128, .f32⟩ : BufTy).Contents (Elt F)) (w : (⟨S128x16, .f32⟩ : BufTy).Contents (Elt F)) :
    (⟨S100000x16, .f32⟩ : BufTy).Contents (Elt F) :=
  Host.dotGeneral dot_S100000x128_S128x16_S100000x16_1_0_0_1_n_n none x w

/-- relu(a + b) · W2, the bias row `b` spread over the rows of `a`. -/
def hidden (a : (⟨S100000x16, .f32⟩ : BufTy).Contents (Elt F)) (b : (⟨S1x16, .f32⟩ : BufTy).Contents (Elt F))
    (w : (⟨S16x2, .f32⟩ : BufTy).Contents (Elt F)) : (⟨S100000x2, .f32⟩ : BufTy).Contents (Elt F) :=
  Host.dotGeneral dot_S100000x16_S16x2_S100000x2_1_0_0_1_n_n none
    (maximumf (addf a (broadcastInDim S100000x16 ![0, 1] bcast_S1x16_S100000x16_0_1 b))
      (broadcastInDim S100000x16 ![] bcast_S_S100000x16 (constant (F := F) S_ .f32 0x00000000#32))) w

/-- The row maximum of `z`, started from −∞, spread back over the two columns. -/
def rowMax2 (z : (⟨S100000x2, .f32⟩ : BufTy).Contents (Elt F)) : (⟨S100000x2, .f32⟩ : BufTy).Contents (Elt F) :=
  broadcastInDim S100000x2 ![0, 1] bcast_S100000x1_S100000x2_0_1 (broadcastInDim S100000x1 ![0] bcast_S100000_S100000x1_0
    (maximumf (broadcastInDim S100000 ![] bcast_S_S100000 (constant (F := F) S_ .f32 0xFF800000#32))
      (Host.reduce (FloatOps.maximumf (F := F) (φ := .f32)) z (constant (F := F) S_ .f32 0xFF800000#32) reducesTo_S100000x2_S100000_d1 h_S_)))

/-- log_softmax along the rows: z − max − log Σ exp(z − max). -/
def logSoftmax (z : (⟨S100000x2, .f32⟩ : BufTy).Contents (Elt F)) : (⟨S100000x2, .f32⟩ : BufTy).Contents (Elt F) :=
  subf (subf z (rowMax2 z)) (broadcastInDim S100000x2 ![0, 1] bcast_S100000x1_S100000x2_0_1
    (Host.log (broadcastInDim S100000x1 ![0] bcast_S100000_S100000x1_0
      (Host.reduceAdd (Host.exp (subf z (rowMax2 z))) (constant (F := F) S_ .f32 0x00000000#32) reducesTo_S100000x2_S100000_d1 h_S_))))

/-- log_softmax(a + b), the bias row `b` spread over the rows of `a`. -/
def logSoftmaxBias (a : (⟨S100000x2, .f32⟩ : BufTy).Contents (Elt F)) (b : (⟨S1x2, .f32⟩ : BufTy).Contents (Elt F)) :
    (⟨S100000x2, .f32⟩ : BufTy).Contents (Elt F) :=
  logSoftmax (addf a (broadcastInDim S100000x2 ![0, 1] bcast_S1x2_S100000x2_0_1 b))

/-- A vector of 16 as the one row of a [1, 16] matrix. -/
def row16 (b : (⟨S16, .f32⟩ : BufTy).Contents (Elt F)) : (⟨S1x16, .f32⟩ : BufTy).Contents (Elt F) :=
  broadcastInDim S1x16 ![1] bcast_S16_S1x16_1 b

/-- A vector of 2 as the one row of a [1, 2] matrix. -/
def row2 (b : (⟨S2, .f32⟩ : BufTy).Contents (Elt F)) : (⟨S1x2, .f32⟩ : BufTy).Contents (Elt F) :=
  broadcastInDim S1x2 ![1] bcast_S2_S1x2_1 b

/-- The two-layer network from the first layer's pre-activation on: the bias rows `r1`, `r2` as [1, ·] matrices. -/
def tail (e : (⟨S2x3200000, .i32⟩ : BufTy).Contents (Elt F)) (h1 : (⟨S100000x16, .f32⟩ : BufTy).Contents (Elt F))
    (r1 : (⟨S1x16, .f32⟩ : BufTy).Contents (Elt F)) (w2 : (⟨S16x2, .f32⟩ : BufTy).Contents (Elt F))
    (r2 : (⟨S1x2, .f32⟩ : BufTy).Contents (Elt F)) : (⟨S100000x2, .f32⟩ : BufTy).Contents (Elt F) :=
  logSoftmaxBias
    (agg2 (srcIdx e) (dstIdx e) (normOf (F := F) (srcIdx e) (dstIdx e))
      (hidden (agg16 (srcIdx e) (dstIdx e) (normOf (F := F) (srcIdx e) (dstIdx e)) h1) r1 w2)) r2

/-- The whole network of the six arguments. -/
def network (x : (⟨S100000x128, .f32⟩ : BufTy).Contents (Elt F)) (e : (⟨S2x3200000, .i32⟩ : BufTy).Contents (Elt F))
    (w1 : (⟨S128x16, .f32⟩ : BufTy).Contents (Elt F)) (b1 : (⟨S16, .f32⟩ : BufTy).Contents (Elt F))
    (w2 : (⟨S16x2, .f32⟩ : BufTy).Contents (Elt F)) (b2 : (⟨S2, .f32⟩ : BufTy).Contents (Elt F)) :
    (⟨S100000x2, .f32⟩ : BufTy).Contents (Elt F) :=
  tail e (lin1 x w1) (row16 b1) w2 (row2 b2)

end Cert.Spec

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.HostRows.lean ====
/-
  The three dense stages of the network (Spec.lean) read at one entry (r, q), each as a row function (Rows.lean)
  of the rows of its operands: x · W1 at (r, q) is the product row of x's row r and W1's column q; relu(a + b) · W2
  the relu-product row of the row a(r, ·) + b; log_softmax(a + b) the log_softmax row of a(r, ·) + b at q. The
  host's row maximum is taken from −∞ and then compared with −∞ once more, which changes nothing; its row sum
  starts from the zero word, which adds nothing.
-/
import proofs.«153009_j22462678958350_1_alg».proof.Proof.Spec
import proofs.«153009_j22462678958350_1_alg».proof.Proof.Rows
import proofs.«153009_j22462678958350_1_alg».proof.Proof.LibHostMatmulNN
import proofs.«153009_j22462678958350_1_alg».proof.Proof.LibHostKeepdims
import Idealize.ShloMosaic.Lib.ValueIdx

noncomputable section

open scoped BigOperators

namespace Cert.HostRows

open Cert.ReferenceIdeal Cert.ReferenceIdeal.Gen Idealize.ShloMosaic Idealize.ShloMosaic.ValueIdx Cert.Rows

theorem reduces_d1 : S100000x2.Reduces [1] S100000 := by decide

theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

theorem lin1_apply (x : FVec Ideal S100000x128 .f32) (w : FVec Ideal S128x16 .f32) (r : Fin 100000) (q : Fin 16) :
    Cert.Spec.lin1 (F := Ideal) x w (ix2 r q) = dotRow (fun k : Fin 128 => x (ix2 r k)) (fun k => w (ix2 k q)) := by
  unfold Cert.Spec.lin1 dotRow
  exact Cert.LibHostMatmulNN.hostDot_nn_apply dot_S100000x128_S128x16_S100000x16_1_0_0_1_n_n rfl rfl rfl rfl rfl rfl none x w r q

theorem hidden_apply (a : FVec Ideal S100000x16 .f32) (b : FVec Ideal S1x16 .f32) (w : FVec Ideal S16x2 .f32)
    (r : Fin 100000) (q : Fin 2) :
    Cert.Spec.hidden (F := Ideal) a b w (ix2 r q)
      = reluDotRow (fun k : Fin 16 => a (ix2 r k) + b (ix2 (0 : Fin 1) k)) (fun k => w (ix2 k q)) := by
  unfold Cert.Spec.hidden reluDotRow
  refine (Cert.LibHostMatmulNN.hostDot_nn_apply dot_S100000x16_S16x2_S100000x2_1_0_0_1_n_n rfl rfl rfl rfl rfl rfl none _ w r q).trans ?_
  refine Finset.sum_congr rfl fun k _ => ?_
  rw [maximumf_apply, addf_apply, broadcastInDim_1b_ab_apply _ _ rfl, broadcastInDim_scalar_apply, constant_apply]
  rfl

/-- The bias row added: entry (r, c) of a + b. -/
theorem addRow_apply (a : FVec Ideal S100000x2 .f32) (b : FVec Ideal S1x2 .f32) (r : Fin 100000) (c : Fin 2) :
    addf a (broadcastInDim S100000x2 ![0, 1] bcast_S1x2_S100000x2_0_1 b) (ix2 r c) = a (ix2 r c) + b (ix2 (0 : Fin 1) c) := by
  rw [addf_apply, broadcastInDim_1b_ab_apply _ _ rfl]

/-- The host's row maximum spread back over the columns is the row's maximum from −∞. -/
theorem rowMax2_apply (z : FVec Ideal S100000x2 .f32) (r : Fin 100000) (c : Fin 2) :
    Cert.Spec.rowMax2 (F := Ideal) z (ix2 r c) = rowMax (fun k : Fin 2 => z (ix2 r k)) := by
  unfold Cert.Spec.rowMax2
  rw [broadcastInDim_a1_ab_apply _ _ rfl, broadcastInDim_a_a1_apply _ _ rfl, maximumf_apply, broadcastInDim_scalar_apply,
    hostReduce_max_rows_apply z _ reducesTo_S100000x2_S100000_d1 reduces_d1 h_S_ r, constant_apply, constant_apply]
  exact max_negInf_rowMax _

theorem logSoftmax_apply (z : FVec Ideal S100000x2 .f32) (r : Fin 100000) (q : Fin 2) :
    Cert.Spec.logSoftmax (F := Ideal) z (ix2 r q) = lsmRow (fun k : Fin 2 => z (ix2 r k)) q := by
  unfold Cert.Spec.logSoftmax lsmRow
  rw [subf_apply, subf_apply, rowMax2_apply, broadcastInDim_a1_ab_apply _ _ rfl, hostLog_apply, broadcastInDim_a_a1_apply _ _ rfl,
    hostReduceAdd_rows_apply _ _ reducesTo_S100000x2_S100000_d1 reduces_d1 h_S_ r, constant_apply, Ideal.ofBits_zero_f32, zero_add]
  refine congrArg (fun s => (z (ix2 r q) - rowMax (fun k : Fin 2 => z (ix2 r k))) - Ideal.log s) (Finset.sum_congr rfl fun k _ => ?_)
  rw [hostExp_apply, subf_apply, rowMax2_apply]

theorem logSoftmaxBias_apply (a : FVec Ideal S100000x2 .f32) (b : FVec Ideal S1x2 .f32) (r : Fin 100000) (q : Fin 2) :
    Cert.Spec.logSoftmaxBias (F := Ideal) a b (ix2 r q) = lsmRow (fun k : Fin 2 => a (ix2 r k) + b (ix2 (0 : Fin 1) k)) q := by
  unfold Cert.Spec.logSoftmaxBias
  rw [logSoftmax_apply]
  exact congrArg (fun f => lsmRow f q) (funext fun k => addRow_apply a b r k)

end Cert.HostRows

end
-- ==== Proof.Regions.lean ====
/-
  Each kernel region's output array, whole, as a stage of the network (Spec.lean) applied to the arrays the region
  finds when it is entered — for ANY entry contents `V`. Each region has a grid of ten points; point t reads rows
  10000·t … 10000·t + 9999 of its row-tiled operand (and the small operands whole) and writes back the same rows of
  its result. An entry (p, q) of point t's block is the body's row function (Payloads.lean) of row p of the blocks,
  which is row 10000·t + p of the arrays, which is the stage's entry (10000·t + p, q) (HostRows.lean). The ten blocks
  tile the rows 0 … 99999, so the array after the region is the stage.
-/
import proofs.«153009_j22462678958350_1_alg».proof.Proof.Gen.KernelIdeal.Frame
import proofs.«153009_j22462678958350_1_alg».proof.Proof.Payloads
import proofs.«153009_j22462678958350_1_alg».proof.Proof.HostRows
import Idealize.ShloMosaic.Lib.Pipeline.Value

set_option maxRecDepth 16384

noncomputable section

namespace Cert.Regions

open Cert.KernelIdeal Cert.KernelIdeal.Gen Idealize.ShloMosaic Idealize.ShloMosaic.TcCoe Idealize.SL.Sem
open Idealize.ShloMosaic.ValueIdx Cert.Rows

variable (V : (c : Dev nD) → (b : Ref sig .tc) → Buf (Elt Ideal) ((c : Thread nD τ).loc b))

theorem hz : (![0, 0] : Fin 2 → Nat) = fun _ => 0 := funext fun a => by fin_cases a <;> rfl

/-! ## Region 0: x · W1 -/

/-- The printed index maps over the grid: the row-tiled windows sit at block row t, everything else at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's block of x is row 10000·t + p of x. -/
theorem read0_0 (c : Dev nD) (t : Fin cfg0.N) (p : Fin 10000) (k : Fin 128) (r : Fin 100000) (hr : r.val = t.val * 10000 + p.val) :
    iblk0 V c 0 t (ix2 p k) = V c main_arg0 (ix2 r k) := by
  obtain ⟨e0, e1, e2, e3, e4, e5⟩ := idx_facts0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 10000 + 1 * p.val = r.val; omega
  | ⟨1, _⟩ => show win0_0.index t (1 : Fin 2) * 128 + 1 * k.val = k.val; omega

/-- W1 is read whole at every point. -/
theorem read0_1 (c : Dev nD) (t : Fin cfg0.N) (k : Fin 128) (q : Fin 16) :
    iblk0 V c 1 t (ix2 k q) = V c main_arg2 (ix2 k q) := by
  obtain ⟨e0, e1, e2, e3, e4, e5⟩ := idx_facts0 t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 16 + 1 * q.val = q.val; omega

/-- What point t writes back is block t of x · W1. -/
theorem flushed0 (c : Dev nD) (t : Fin cfg0.N) :
    (dat0 V c).flushed 2 t = ((cfg0.win 2).blk t).view.read (Elt Ideal) (Cert.Spec.lin1 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x16) hz]
  obtain ⟨e0, e1, e2, e3, e4, e5⟩ := idx_facts0 t
  funext j
  obtain ⟨p, q, rfl⟩ : ∃ (p : Fin 10000) (q : Fin 16), j = ix2 p q := ⟨j 0, j 1, eq_ix2 j⟩
  have hr : t.val * 10000 + p.val < 100000 := by have h1 := t.isLt; have h2 := p.isLt; have e : cfg0.N = 10 := N_0; omega
  have hemb : ((cfg0.win 2).blk t).view.emb (ix2 p q) = ix2 (⟨t.val * 10000 + p.val, hr⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 16 + 1 * q.val = q.val; omega
  show k0_pay1 (iblk0 V c 0 t) (iblk0 V c 1 t) (ix2 p q) = Cert.Spec.lin1 (F := Ideal) (V c main_arg0) (V c main_arg2) (((cfg0.win 2).blk t).view.emb (ix2 p q))
  rw [hemb, Cert.Payloads.pay0_apply, Cert.HostRows.lin1_apply]
  refine congrArg₂ dotRow (funext fun k => ?_) (funext fun k => ?_)
  · exact read0_0 V c t p k _ rfl
  · exact read0_1 V c t k q

theorem mem_blk0 (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v30).slice (win0_2.rect t)).set ↔ _
  rw [View.set_slice_whole, Rect.mem_set_unit]
  exact Iff.rfl

/-- Every row lies in the block of the point row / 10000. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  let t : Fin cfg0.N := ⟨(i 0).val / 10000, by have e : cfg0.N = 10 := N_0; omega⟩
  obtain ⟨e0, e1, e2, e3, e4, e5⟩ := idx_facts0 t
  have ht : t.val = (i 0).val / 10000 := rfl
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- After region 0 its result array is x · W1 of the arrays it found. -/
theorem arr0 (c : Dev nD) :
    (dat0 V c).arrAt 2 cfg0.N = Cert.Spec.lin1 (F := Ideal) (V c main_arg0) (V c main_arg2) :=
  (dat0 V c).arrAt_eq_of_cover 2 _ (fun t _ => flushed0 V c t) cover0

/-! ## Region 1: relu(a + b) · W2 -/

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's block of the aggregated features is row 10000·t + p of the array. -/
theorem read1_0 (c : Dev nD) (t : Fin cfg1.N) (p : Fin 10000) (k : Fin 16) (r : Fin 100000) (hr : r.val = t.val * 10000 + p.val) :
    iblk1 V c 0 t (ix2 p k) = V c main_v43 (ix2 r k) := by
  obtain ⟨e0, e1, e2, e3, e4, e5, e6, e7⟩ := idx_facts1 t
  show V c main_v43 (((cfg1.win 0).blk t).view.emb (ix2 p k)) = V c main_v43 (ix2 r k)
  refine congrArg (V c main_v43) (funext fun a => Fin.ext ?_)
  match a with
  | ⟨0, _⟩ => show win1_0.index t (0 : Fin 2) * 10000 + 1 * p.val = r.val; omega
  | ⟨1, _⟩ => show win1_0.index t (1 : Fin 2) * 16 + 1 * k.val = k.val; omega

/-- The bias row is read whole at every point. -/
theorem read1_1 (c : Dev nD) (t : Fin cfg1.N) (u : Fin 1) (k : Fin 16) :
    iblk1 V c 1 t (ix2 u k) = V c main_v44 (ix2 u k) := by
  obtain ⟨e0, e1, e2, e3, e4, e5, e6, e7⟩ := idx_facts1 t
  show V c main_v44 (((cfg1.win 1).blk t).view.emb (ix2 u k)) = V c main_v44 (ix2 u k)
  refine congrArg (V c main_v44) (funext fun a => Fin.ext ?_)
  match a with
  | ⟨0, _⟩ => show win1_1.index t (0 : Fin 2) * 1 + 1 * u.val = u.val; omega
  | ⟨1, _⟩ => show win1_1.index t (1 : Fin 2) * 16 + 1 * k.val = k.val; omega

/-- W2 is read whole at every point. -/
theorem read1_2 (c : Dev nD) (t : Fin cfg1.N) (k : Fin 16) (q : Fin 2) :
    iblk1 V c 2 t (ix2 k q) = V c main_arg4 (ix2 k q) := by
  obtain ⟨e0, e1, e2, e3, e4, e5, e6, e7⟩ := idx_facts1 t
  show V c main_arg4 (((cfg1.win 2).blk t).view.emb (ix2 k q)) = V c main_arg4 (ix2 k q)
  refine congrArg (V c main_arg4) (funext fun a => Fin.ext ?_)
  match a with
  | ⟨0, _⟩ => show win1_2.index t (0 : Fin 2) * 16 + 1 * k.val = k.val; omega
  | ⟨1, _⟩ => show win1_2.index t (1 : Fin 2) * 2 + 1 * q.val = q.val; omega

/-- What point t writes back is block t of relu(a + b) · W2. -/
theorem flushed1 (c : Dev nD) (t : Fin cfg1.N) :
    (dat1 V c).flushed 3 t = ((cfg1.win 3).blk t).view.read (Elt Ideal)
      (Cert.Spec.hidden (F := Ideal) (V c main_v43) (V c main_v44) (V c main_arg4)) := by
  show (cfg1.win 3).cut (grid1.coords t) ((dat1 V c).after 3 t) = _
  rw [after1_3]
  unfold out1_3
  rw [View.canon_unit_zero hz]
  simp only [View.ld_unit_zero (S := S10000x16) hz, View.ld_unit_zero (S := S1x16) hz, View.ld_unit_zero (S := S16x2) hz]
  obtain ⟨e0, e1, e2, e3, e4, e5, e6, e7⟩ := idx_facts1 t
  funext j
  obtain ⟨p, q, rfl⟩ : ∃ (p : Fin 10000) (q : Fin 2), j = ix2 p q := ⟨j 0, j 1, eq_ix2 j⟩
  have hr : t.val * 10000 + p.val < 100000 := by have h1 := t.isLt; have h2 := p.isLt; have e : cfg1.N = 10 := N_1; omega
  have hemb : ((cfg1.win 3).blk t).view.emb (ix2 p q) = ix2 (⟨t.val * 10000 + p.val, hr⟩ : Fin 100000) q := by
    funext a; apply Fin.ext
    match a with
    | ⟨0, _⟩ => show win1_3.index t (0 : Fin 2) * 10000 + 1 * p.val = t.val * 10000 + p.val; omega
    | ⟨1, _⟩ => show win1_3.index t (1 : Fin 2) * 2 + 1 * q.val = q.val; omega
  show k1_pay1 (iblk1 V c 0 t) (iblk1 V c 1 t) (iblk1 V c 2 t) (ix2 p q)
    = Cert.Spec.hidden (F := Ideal) (V c main_v43) (V c main_v44) (V c main_arg4) (((cfg1.win 3).blk t).view.emb (ix2 p q))
  rw [hemb, Cert.Payloads.pay1_apply, Cert.HostRows.hidden_apply]
  refine congrArg₂ reluDotRow (funext fun k => ?_) (funext fun k => ?_)
  · exact congrArg₂ (· + ·) (read1_0 V c t p k _ rfl) (read1_1 V c t 0 k)
  · exact read1_2 V c t k q

theorem mem_blk1 (t : Fin cfg1.N) (i : S100000x2.Idx) :
    i ∈ ((cfg1.win 3).blk t).view.set ↔ ∀ a : Fin 2, win1_3.index t a * S10000x2.size a ≤ (i a).val ∧ (i a).val < win1_3.index t a * S10000x2.size a + S10000x2.size a := by
  show i ∈ ((View.whole main_v45).slice (win1_3.rect t)).set ↔ _
  rw [View.set_slice_whole, Rect.mem_set_unit]
  exact Iff.rfl

theorem cover1 (i : S100000x2.Idx) : ∃ t : Fin cfg1.N, (cfg1.win 3).flush t = true ∧ i ∈ ((cfg1.win 3).blk t).view.set := by
  have hi0 : (i 0).val < 100000 := (i 0).isLt
  have hi1 : (i 1).val < 2 := (i 1).isLt
  let t : Fin cfg1.N := ⟨(i 0).val / 10000, by have e : cfg1.N = 10 := N_1; omega⟩
  obtain ⟨e0, e1, e2, e3, e4, e5, e6, e7⟩ := idx_facts1 t
  have ht : t.val = (i 0).val / 10000 := rfl
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 2 ≤ (i 1).val ∧ (i 1).val < win1_3.index t (1 : Fin 2) * 2 + 2; omega

/-- After region 1 its result array is relu(a + b) · W2 of the arrays it found. -/
theorem arr1 (c : Dev nD) :
    (dat1 V c).arrAt 3 cfg1.N = Cert.Spec.hidden (F := Ideal) (V c main_v43) (V c main_v44) (V c main_arg4) :=
  (dat1 V c).arrAt_eq_of_cover 3 _ (fun t _ => flushed1 V c t) cover1

/-! ## Region 2: log_softmax(a + b) -/

theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem read2_0 (c : Dev nD) (t : Fin cfg2.N) (p : Fin 10000) (k : Fin 2) (r : Fin 100000) (hr : r.val = t.val * 10000 + p.val) :
    iblk2 V c 0 t (ix2 p k) = V c main_v58 (ix2 r k) := by
  obtain ⟨e0, e1, e2, e3, e4, e5⟩ := idx_facts2 t
  show V c main_v58 (((cfg2.win 0).blk t).view.emb (ix2 p k)) = V c main_v58 (ix2 r k)
  refine congrArg (V c main_v58) (funext fun a => Fin.ext ?_)
  match a with
  | ⟨0, _⟩ => show win2_0.index t (0 : Fin 2) * 10000 + 1 * p.val = r.val; omega
  | ⟨1, _⟩ => show win2_0.index t (1 : Fin 2) * 2 + 1 * k.val = k.val; omega

theorem read2_1 (c : Dev nD) (t : Fin cfg2.N) (u : Fin 1) (k : Fin 2) :
    iblk2 V c 1 t (ix2 u k) = V c main_v59 (ix2 u k) := by
  obtain ⟨e0, e1, e2, e3, e4, e5⟩ := idx_facts2 t
  show V c main_v59 (((cfg2.win 1).blk t).view.emb (ix2 u k)) = V c main_v59 (ix2 u k)
  refine congrArg (V c main_v59) (funext fun a => Fin.ext ?_)
  match a with
  | ⟨0, _⟩ => show win2_1.index t (0 : Fin 2) * 1 + 1 * u.val = u.val; omega
  | ⟨1, _⟩ => show win2_1.index t (1 : Fin 2) * 2 + 1 * k.val = k.val; omega

/-- What point t writes back is block t of log_softmax(a + b). -/
theorem flushed2 (c : Dev nD) (t : Fin cfg2.N) :
    (dat2 V c).flushed 2 t = ((cfg2.win 2).blk t).view.read (Elt Ideal)
      (Cert.Spec.logSoftmaxBias (F := Ideal) (V c main_v58) (V c main_v59)) := by
  show (cfg2.win 2).cut (grid2.coords t) ((dat2 V c).after 2 t) = _
  rw [after2_2]
  unfold out2_2
  rw [View.canon_unit_zero hz]
  simp only [View.ld_unit_zero (S := S10000x2) hz, View.ld_unit_zero (S := S1x2) hz]
  obtain ⟨e0, e1, e2, e3, e4, e5⟩ := idx_facts2 t
  funext j
  obtain ⟨p, q, rfl⟩ : ∃ (p : Fin 10000) (q : Fin 2), j = ix2 p q := ⟨j 0, j 1, eq_ix2 j⟩
  have hr : t.val * 10000 + p.val < 100000 := by have h1 := t.isLt; have h2 := p.isLt; have e : cfg2.N = 10 := N_2; omega
  have hemb : ((cfg2.win 2).blk t).view.emb (ix2 p q) = ix2 (⟨t.val * 10000 + p.val, hr⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 2 + 1 * q.val = q.val; omega
  show k2_pay1 (iblk2 V c 0 t) (iblk2 V c 1 t) (ix2 p q)
    = Cert.Spec.logSoftmaxBias (F := Ideal) (V c main_v58) (V c main_v59) (((cfg2.win 2).blk t).view.emb (ix2 p q))
  rw [hemb, Cert.Payloads.pay2_apply, Cert.HostRows.logSoftmaxBias_apply]
  refine congrArg (fun f => lsmRow f q) (funext fun k => ?_)
  exact congrArg₂ (· + ·) (read2_0 V c t p k _ rfl) (read2_1 V c t 0 k)

theorem mem_blk2 (t : Fin cfg2.N) (i : S100000x2.Idx) :
    i ∈ ((cfg2.win 2).blk t).view.set ↔ ∀ a : Fin 2, win2_2.index t a * S10000x2.size a ≤ (i a).val ∧ (i a).val < win2_2.index t a * S10000x2.size a + S10000x2.size a := by
  show i ∈ ((View.whole main_v60).slice (win2_2.rect t)).set ↔ _
  rw [View.set_slice_whole, Rect.mem_set_unit]
  exact Iff.rfl

theorem cover2 (i : S100000x2.Idx) : ∃ t : Fin cfg2.N, (cfg2.win 2).flush t = true ∧ i ∈ ((cfg2.win 2).blk t).view.set := by
  have hi0 : (i 0).val < 100000 := (i 0).isLt
  have hi1 : (i 1).val < 2 := (i 1).isLt
  let t : Fin cfg2.N := ⟨(i 0).val / 10000, by have e : cfg2.N = 10 := N_2; omega⟩
  obtain ⟨e0, e1, e2, e3, e4, e5⟩ := idx_facts2 t
  have ht : t.val = (i 0).val / 10000 := rfl
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 2 ≤ (i 1).val ∧ (i 1).val < win2_2.index t (1 : Fin 2) * 2 + 2; omega

/-- After region 2 its result array is log_softmax(a + b) of the arrays it found. -/
theorem arr2 (c : Dev nD) :
    (dat2 V c).arrAt 2 cfg2.N = Cert.Spec.logSoftmaxBias (F := Ideal) (V c main_v58) (V c main_v59) :=
  (dat2 V c).arrAt_eq_of_cover 2 _ (fun t _ => flushed2 V c t) cover2

end Cert.Regions

end
-- ==== Proof.KStages.lean ====
/-
  The kernel program's five stretches of host operations, each read from ANY contents `X` of the buffers before
  it: the first builds the endpoint lists, the degree mask, deg^(-1/2) and the scalar zero from the edge array; the
  second selects deg^(-1/2) under the mask; the third gathers it at both endpoints and multiplies; the fourth and the
  fifth gather the rows of the layer's input at the sources, scale them by the edge weights and scatter-add them at
  the destinations, and lay a bias vector out as a one-row matrix. A buffer the stretch does not write keeps its
  contents. Each right-hand side is the stretch's operations composed (Spec.lean names them).
-/
import proofs.«153009_j22462678958350_1_alg».proof.Proof.Gen.KernelIdeal.Launch
import proofs.«153009_j22462678958350_1_alg».proof.Proof.Spec
import Idealize.ShloMosaic.Lib.StableHlo.Run

set_option maxRecDepth 16384

noncomputable section

namespace Cert.KernelIdeal.KStages

open Cert.KernelIdeal Cert.KernelIdeal.Gen Idealize.ShloMosaic Idealize.ShloMosaic.TcCoe Idealize.SL.Sem
open Idealize.ShloMosaic.StableHlo

variable (X : Valuation τ sig (Elt Ideal))

/-- Reads one buffer after a stretch of host operations as the operations' functions of the contents before it. -/
macro "host_read" : tactic => `(tactic| (after_results_simp; try (repeat (first     | rw [StableHlo.nullary_result] | rw [StableHlo.unary_result] | rw [StableHlo.binary_result] | rw [StableHlo.ternary_result] | rw [StableHlo.reshape_result]     | (rw [StableHlo.nullary_result_ne]; rotate_left; decide)     | (rw [StableHlo.unary_result_ne]; rotate_left; decide)     | (rw [StableHlo.binary_result_ne]; rotate_left; decide)     | (rw [StableHlo.ternary_result_ne]; rotate_left; decide)     | (rw [StableHlo.reshape_result_ne]; rotate_left; decide)))))

/-! ## The index lists, the degree mask and deg^(-1/2) -/

theorem a_src : StableHlo.after hostOps0 X (Proc.devRef .tc main_v3) = Cert.Spec.srcIdx (F := Ideal) (X (Proc.devRef .tc main_arg1)) := by
  host_read
  unfold Cert.Spec.srcIdx
  rfl

theorem a_dst : StableHlo.after hostOps0 X (Proc.devRef .tc main_v6) = Cert.Spec.dstIdx (F := Ideal) (X (Proc.devRef .tc main_arg1)) := by
  host_read
  unfold Cert.Spec.dstIdx
  rfl

theorem a_mask : StableHlo.after hostOps0 X (Proc.devRef .tc main_v12) = Cert.Spec.degMask (F := Ideal) (Cert.Spec.dstIdx (F := Ideal) (X (Proc.devRef .tc main_arg1))) := by
  host_read
  unfold Cert.Spec.degMask Cert.Spec.deg Cert.Spec.colIdx Cert.Spec.dstIdx
  rfl

theorem a_rdeg : StableHlo.after hostOps0 X (Proc.devRef .tc main_v13) = Cert.Spec.rdeg (F := Ideal) (Cert.Spec.dstIdx (F := Ideal) (X (Proc.devRef .tc main_arg1))) := by
  host_read
  unfold Cert.Spec.rdeg Cert.Spec.deg Cert.Spec.colIdx Cert.Spec.dstIdx
  rfl

theorem a_zero : StableHlo.after hostOps0 X (Proc.devRef .tc main_cst_2) = Cert.Spec.zeroS (F := Ideal) := by
  host_read
  unfold Cert.Spec.zeroS
  rfl

theorem a_arg0 : StableHlo.after hostOps0 X (Proc.devRef .tc main_arg0) = X (Proc.devRef .tc main_arg0) := by
  host_read

theorem a_arg2 : StableHlo.after hostOps0 X (Proc.devRef .tc main_arg2) = X (Proc.devRef .tc main_arg2) := by
  host_read

theorem a_arg3 : StableHlo.after hostOps0 X (Proc.devRef .tc main_arg3) = X (Proc.devRef .tc main_arg3) := by
  host_read

theorem a_arg4 : StableHlo.after hostOps0 X (Proc.devRef .tc main_arg4) = X (Proc.devRef .tc main_arg4) := by
  host_read

theorem a_arg5 : StableHlo.after hostOps0 X (Proc.devRef .tc main_arg5) = X (Proc.devRef .tc main_arg5) := by
  host_read

/-! ## deg^(-1/2) under the mask -/

theorem w_dinv : StableHlo.after hostOps0_1 X (Proc.devRef .tc main_v14) = Cert.Spec.whereSel (F := Ideal) (X (Proc.devRef .tc main_v12)) (X (Proc.devRef .tc main_v13)) (X (Proc.devRef .tc main_cst_2)) := by
  host_read
  unfold Cert.Spec.whereSel
  rfl

theorem w_v3 : StableHlo.after hostOps0_1 X (Proc.devRef .tc main_v3) = X (Proc.devRef .tc main_v3) := by
  host_read

theorem w_v6 : StableHlo.after hostOps0_1 X (Proc.devRef .tc main_v6) = X (Proc.devRef .tc main_v6) := by
  host_read

theorem w_arg0 : StableHlo.after hostOps0_1 X (Proc.devRef .tc main_arg0) = X (Proc.devRef .tc main_arg0) := by
  host_read

theorem w_arg2 : StableHlo.after hostOps0_1 X (Proc.devRef .tc main_arg2) = X (Proc.devRef .tc main_arg2) := by
  host_read

theorem w_arg3 : StableHlo.after hostOps0_1 X (Proc.devRef .tc main_arg3) = X (Proc.devRef .tc main_arg3) := by
  host_read

theorem w_arg4 : StableHlo.after hostOps0_1 X (Proc.devRef .tc main_arg4) = X (Proc.devRef .tc main_arg4) := by
  host_read

theorem w_arg5 : StableHlo.after hostOps0_1 X (Proc.devRef .tc main_arg5) = X (Proc.devRef .tc main_arg5) := by
  host_read

/-! ## The edge weights -/

theorem b_norm : StableHlo.after hostOps0_2 X (Proc.devRef .tc main_v29) = Cert.Spec.normOf' (F := Ideal) (X (Proc.devRef .tc main_v14)) (X (Proc.devRef .tc main_v3)) (X (Proc.devRef .tc main_v6)) := by
  host_read
  unfold Cert.Spec.normOf' Cert.Spec.wrapIdx
  rfl

theorem b_v3 : StableHlo.after hostOps0_2 X (Proc.devRef .tc main_v3) = X (Proc.devRef .tc main_v3) := by
  host_read

theorem b_v6 : StableHlo.after hostOps0_2 X (Proc.devRef .tc main_v6) = X (Proc.devRef .tc main_v6) := by
  host_read

theorem b_arg0 : StableHlo.after hostOps0_2 X (Proc.devRef .tc main_arg0) = X (Proc.devRef .tc main_arg0) := by
  host_read

theorem b_arg2 : StableHlo.after hostOps0_2 X (Proc.devRef .tc main_arg2) = X (Proc.devRef .tc main_arg2) := by
  host_read

theorem b_arg3 : StableHlo.after hostOps0_2 X (Proc.devRef .tc main_arg3) = X (Proc.devRef .tc main_arg3) := by
  host_read

theorem b_arg4 : StableHlo.after hostOps0_2 X (Proc.devRef .tc main_arg4) = X (Proc.devRef .tc main_arg4) := by
  host_read

theorem b_arg5 : StableHlo.after hostOps0_2 X (Proc.devRef .tc main_arg5) = X (Proc.devRef .tc main_arg5) := by
  host_read

/-! ## The first aggregation and the first bias row -/

theorem c_agg : StableHlo.after hostOps1 X (Proc.devRef .tc main_v43) = Cert.Spec.agg16 (F := Ideal) (X (Proc.devRef .tc main_v3)) (X (Proc.devRef .tc main_v6)) (X (Proc.devRef .tc main_v29)) (X (Proc.devRef .tc main_v30)) := by
  host_read
  unfold Cert.Spec.agg16 Cert.Spec.colIdx Cert.Spec.wrapIdx
  rfl

theorem c_row : StableHlo.after hostOps1 X (Proc.devRef .tc main_v44) = shapeCast S1x16 (X (Proc.devRef .tc main_arg3)) shapeCasts_S16_S1x16 := by
  host_read
  rfl

theorem c_v3 : StableHlo.after hostOps1 X (Proc.devRef .tc main_v3) = X (Proc.devRef .tc main_v3) := by
  host_read

theorem c_v6 : StableHlo.after hostOps1 X (Proc.devRef .tc main_v6) = X (Proc.devRef .tc main_v6) := by
  host_read

theorem c_v29 : StableHlo.after hostOps1 X (Proc.devRef .tc main_v29) = X (Proc.devRef .tc main_v29) := by
  host_read

theorem c_arg4 : StableHlo.after hostOps1 X (Proc.devRef .tc main_arg4) = X (Proc.devRef .tc main_arg4) := by
  host_read

theorem c_arg5 : StableHlo.after hostOps1 X (Proc.devRef .tc main_arg5) = X (Proc.devRef .tc main_arg5) := by
  host_read

/-! ## The second aggregation and the second bias row -/

theorem d_agg : StableHlo.after hostOps2 X (Proc.devRef .tc main_v58) = Cert.Spec.agg2 (F := Ideal) (X (Proc.devRef .tc main_v3)) (X (Proc.devRef .tc main_v6)) (X (Proc.devRef .tc main_v29)) (X (Proc.devRef .tc main_v45)) := by
  host_read
  unfold Cert.Spec.agg2 Cert.Spec.colIdx Cert.Spec.wrapIdx
  rfl

theorem d_row : StableHlo.after hostOps2 X (Proc.devRef .tc main_v59) = shapeCast S1x2 (X (Proc.devRef .tc main_arg5)) shapeCasts_S2_S1x2 := by
  host_read
  rfl

end Cert.KernelIdeal.KStages

end
-- ==== Proof.KValue.lean ====
/-
  What the kernel program's result buffer holds after the run: the network of Spec.lean applied to the launch
  contents of the arguments. The buffer contents at the segment boundaries are followed from the launch: the first
  three stretches of host operations compute the endpoint lists and the edge weights from the edge array
  (KStages.lean); region 0 leaves x · W1 (Regions.lean); the next stretch aggregates it over the graph and lays the
  first bias out as a row; region 1 leaves relu(· + b1) · W2; the next stretch aggregates again and lays out the
  second bias; region 2 leaves log_softmax(· + b2). A buffer that no operation of a stretch writes, and that a
  region does not own, is carried across unchanged. The biases reach the regions as [1, n] reshapes, which read the
  same entries as the [1, n] broadcasts the network is written with.
-/
import proofs.«153009_j22462678958350_1_alg».proof.Proof.KRun
import proofs.«153009_j22462678958350_1_alg».proof.Proof.Regions
import proofs.«153009_j22462678958350_1_alg».proof.Proof.KStages
import proofs.«153009_j22462678958350_1_alg».proof.Proof.LibHostKeepdims
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx

/-- A vector of 16 reshaped to [1, 16] reads the entries the broadcast along the columns reads. -/
theorem row16_eq (b : (⟨S16, .f32⟩ : BufTy).Contents (Elt Ideal)) (h : S16.ShapeCasts S1x16) :
    shapeCast S1x16 b h = Cert.Spec.row16 (F := Ideal) b := by
  funext j
  obtain ⟨u, k, rfl⟩ : ∃ (u : Fin 1) (k : Fin 16), j = ix2 u k := ⟨j 0, j 1, eq_ix2 j⟩
  unfold Cert.Spec.row16
  rw [broadcastInDim_b_1b_apply _ _ rfl]
  refine (shapeCast_addUnit_apply ![16] b h (ix2 u k)).trans (congrArg b (funext fun a => ?_))
  match a with
  | ⟨0, _⟩ => rfl

/-- The same for a vector of 2. -/
theorem row2_eq (b : (⟨S2, .f32⟩ : BufTy).Contents (Elt Ideal)) (h : S2.ShapeCasts S1x2) :
    shapeCast S1x2 b h = Cert.Spec.row2 (F := Ideal) b := by
  funext j
  obtain ⟨u, k, rfl⟩ : ∃ (u : Fin 1) (k : Fin 2), j = ix2 u k := ⟨j 0, j 1, eq_ix2 j⟩
  unfold Cert.Spec.row2
  rw [broadcastInDim_b_1b_apply _ _ rfl]
  refine (shapeCast_addUnit_apply ![2] b h (ix2 u k)).trans (congrArg b (funext fun a => ?_))
  match a with
  | ⟨0, _⟩ => rfl

variable (m : (ℓ : Loc nD τ sig) → Buf (Elt Ideal) ℓ) (ρ : Dev nD → PrngReg) (c : Dev nD)

/-- After region 2 its result array is log_softmax(a + b) of the last stretch's two results. -/
theorem after_region2 : W8 m ρ c (Proc.devRef .tc main_v60)
    = Cert.Spec.logSoftmaxBias (F := Ideal) (W7 m ρ c (Proc.devRef .tc main_v58)) (W7 m ρ c (Proc.devRef .tc main_v59)) :=
  (W8_arr m ρ c 2).trans (Cert.Regions.arr2 (V7 m ρ) c)

theorem after_region1 : W6 m ρ c (Proc.devRef .tc main_v45)
    = Cert.Spec.hidden (F := Ideal) (W5 m ρ c (Proc.devRef .tc main_v43)) (W5 m ρ c (Proc.devRef .tc main_v44)) (W5 m ρ c (Proc.devRef .tc main_arg4)) :=
  (W6_arr m ρ c 3).trans (Cert.Regions.arr1 (V5 m ρ) c)

theorem after_region0 : W4 m ρ c (Proc.devRef .tc main_v30)
    = Cert.Spec.lin1 (F := Ideal) (W3 m ρ c (Proc.devRef .tc main_arg0)) (W3 m ρ c (Proc.devRef .tc main_arg2)) :=
  (W4_arr m ρ c 2).trans (Cert.Regions.arr0 (V3 m ρ) c)

/-- The result buffer after the run is the network of the arguments as launched. -/
theorem out_eq : W8 m ρ c (Proc.devRef .tc main_v60)
    = Cert.Spec.network (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [after_region2]
  dsimp only [W7]
  rw [Cert.KernelIdeal.KStages.d_agg, Cert.KernelIdeal.KStages.d_row,
    W6_of_ne m ρ c main_v3 (by decide), W6_of_ne m ρ c main_v6 (by decide), W6_of_ne m ρ c main_v29 (by decide),
    W6_of_ne m ρ c main_arg5 (by decide), after_region1]
  dsimp only [W5]
  rw [Cert.KernelIdeal.KStages.c_agg, Cert.KernelIdeal.KStages.c_row, Cert.KernelIdeal.KStages.c_v3, Cert.KernelIdeal.KStages.c_v6, Cert.KernelIdeal.KStages.c_v29, Cert.KernelIdeal.KStages.c_arg4, Cert.KernelIdeal.KStages.c_arg5,
    W4_of_ne m ρ c main_v3 (by decide), W4_of_ne m ρ c main_v6 (by decide), W4_of_ne m ρ c main_v29 (by decide),
    W4_of_ne m ρ c main_arg3 (by decide), W4_of_ne m ρ c main_arg4 (by decide), W4_of_ne m ρ c main_arg5 (by decide), after_region0]
  dsimp only [W3, W2, W1]
  rw [Cert.KernelIdeal.KStages.b_norm, Cert.KernelIdeal.KStages.b_v3, Cert.KernelIdeal.KStages.b_v6, Cert.KernelIdeal.KStages.b_arg0, Cert.KernelIdeal.KStages.b_arg2, Cert.KernelIdeal.KStages.b_arg3, Cert.KernelIdeal.KStages.b_arg4, Cert.KernelIdeal.KStages.b_arg5,
    Cert.KernelIdeal.KStages.w_dinv, Cert.KernelIdeal.KStages.w_v3, Cert.KernelIdeal.KStages.w_v6, Cert.KernelIdeal.KStages.w_arg0, Cert.KernelIdeal.KStages.w_arg2, Cert.KernelIdeal.KStages.w_arg3, Cert.KernelIdeal.KStages.w_arg4, Cert.KernelIdeal.KStages.w_arg5,
    Cert.KernelIdeal.KStages.a_src, Cert.KernelIdeal.KStages.a_dst, Cert.KernelIdeal.KStages.a_mask, Cert.KernelIdeal.KStages.a_rdeg, Cert.KernelIdeal.KStages.a_zero, Cert.KernelIdeal.KStages.a_arg0, Cert.KernelIdeal.KStages.a_arg2, Cert.KernelIdeal.KStages.a_arg3, Cert.KernelIdeal.KStages.a_arg4, Cert.KernelIdeal.KStages.a_arg5,
    row16_eq, row2_eq]
  unfold Cert.Spec.network Cert.Spec.tail Cert.Spec.normOf Cert.Spec.dinv
  rfl

end Cert.KernelIdeal.KValue

end
-- ==== Proof.RefRun.lean ====
/-
  The reference program's run: its 98 host operations, a straight line, leave the result buffer at the network
  of the six argument arrays (Spec.lean `network`) and every argument as launched. The operations are listed in
  program order (a called function's operations in its call's place) and cut into six stretches — the index lists,
  the degree mask and deg^(-1/2); the selection under the mask; the edge weights, x · W1, the first aggregation and
  bias; the relu; W2, the second aggregation and bias; log_softmax. Each stretch is read from ANY contents before
  it as its operations composed, a buffer it does not write keeps its contents, and the six readings chained give
  the network.
-/
import proofs.«153009_j22462678958350_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

section Program
variable {F : FTy → Type} [FloatOps F]

/-- The program's operations, in order. -/
abbrev ops : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)),
    binary main_arg0 main_arg2 main_v30 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x2_S100000x2_1_0_0_1_n_n none l r) : (⟨S100000x16, .f32⟩ : BufTy).Contents (Elt F) → (⟨S16x2, .f32⟩ : BufTy).Contents (Elt F) → (⟨S100000x2, .f32⟩ : BufTy).Contents (Elt F)),
    nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x2_S3300000x1_S3300000x2_1_0_n_n_0_1_12 x i) : (⟨S100000x2, .f32⟩ : BufTy).Contents (Elt F) → (⟨S3300000x1, .i32⟩ : BufTy).Contents (Elt F) → (⟨S3300000x2, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x2 ![0, 1] bcast_S3300000x1_S3300000x2_0_1 : (⟨S3300000x1, .f32⟩ : BufTy).Contents (Elt F) → (⟨S3300000x2, .f32⟩ : BufTy).Contents (Elt F)),
    binary main_v55 main_v57 main_v58 (mulf : (⟨S3300000x2, .f32⟩ : BufTy).Contents (Elt F) → (⟨S3300000x2, .f32⟩ : BufTy).Contents (Elt F) → (⟨S3300000x2, .f32⟩ : BufTy).Contents (Elt F)),
    nullary main_cst_11 (constant S_ .f32 0x00000000#32),
    unary main_cst_11 main_v59 (broadcastInDim S100000x2 ![] bcast_S_S100000x2 : (⟨S_, .f32⟩ : BufTy).Contents (Elt F) → (⟨S100000x2, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x2_S3300000x1_S3300000x2_1_0_0_1 x i u) : (⟨S100000x2, .f32⟩ : BufTy).Contents (Elt F) → (⟨S3300000x1, .i32⟩ : BufTy).Contents (Elt F) → (⟨S3300000x2, .f32⟩ : BufTy).Contents (Elt F) → (⟨S100000x2, .f32⟩ : BufTy).Contents (Elt F)),
    unary main_arg5 main_v62 (broadcastInDim S1x2 ![1] bcast_S2_S1x2_1 : (⟨S2, .f32⟩ : BufTy).Contents (Elt F) → (⟨S1x2, .f32⟩ : BufTy).Contents (Elt F)),
    unary main_v62 main_v63 (broadcastInDim S100000x2 ![0, 1] bcast_S1x2_S100000x2_0_1 : (⟨S1x2, .f32⟩ : BufTy).Contents (Elt F) → (⟨S100000x2, .f32⟩ : BufTy).Contents (Elt F)),
    binary main_v61 main_v63 main_v64 (addf : (⟨S100000x2, .f32⟩ : BufTy).Contents (Elt F) → (⟨S100000x2, .f32⟩ : BufTy).Contents (Elt F) → (⟨S100000x2, .f32⟩ : BufTy).Contents (Elt F)),
    TRef.nullary (TRef.of (T := ⟨S_, .f32⟩) main_call2_cst) (constant S_ .f32 0xFF800000#32),
    TRef.binary (TRef.of (T := ⟨S100000x2, .f32⟩) main_v64) (TRef.of (T := ⟨S_, .f32⟩) main_call2_cst) (TRef.of (T := ⟨S100000, .f32⟩) main_call2_v0) (fun x v => Host.reduce FloatOps.maximumf x v reducesTo_S100000x2_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x2, .f32⟩) main_call2_v4) (broadcastInDim S100000x2 ![0, 1] bcast_S100000x1_S100000x2_0_1),
    TRef.binary (TRef.of (T := ⟨S100000x2, .f32⟩) main_v64) (TRef.of (T := ⟨S100000x2, .f32⟩) main_call2_v4) (TRef.of (T := ⟨S100000x2, .f32⟩) main_call2_v5) subf,
    TRef.unary (TRef.of (T := ⟨S100000x2, .f32⟩) main_call2_v5) (TRef.of (T := ⟨S100000x2, .f32⟩) main_call2_v6) Host.exp,
    TRef.nullary (TRef.of (T := ⟨S_, .f32⟩) main_call2_cst_1) (constant S_ .f32 0x00000000#32),
    TRef.binary (TRef.of (T := ⟨S100000x2, .f32⟩) main_call2_v6) (TRef.of (T := ⟨S_, .f32⟩) main_call2_cst_1) (TRef.of (T := ⟨S100000, .f32⟩) main_call2_v7) (fun x v => Host.reduceAdd x v reducesTo_S100000x2_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x2, .f32⟩) main_call2_v10) (broadcastInDim S100000x2 ![0, 1] bcast_S100000x1_S100000x2_0_1),
    TRef.binary (TRef.of (T := ⟨S100000x2, .f32⟩) main_call2_v5) (TRef.of (T := ⟨S100000x2, .f32⟩) main_call2_v10) (TRef.of (T := ⟨S100000x2, .f32⟩) main_v65) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The index lists, the degree, its mask and its inverse square root. -/
abbrev opsA : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- deg^(-1/2) under the mask. -/
abbrev opsW : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The edge weights, x · W1, the first aggregation and the first bias. -/
abbrev opsB : List (HloOp τ sig (Elt F)) :=
  [ nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)),
    binary main_arg0 main_arg2 main_v30 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)) ]

/-- The relu. -/
abbrev opsR : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf ]

/-- The product with W2, the second aggregation and the second bias. -/
abbrev opsC : List (HloOp τ sig (Elt F)) :=
  [ binary main_v47 main_arg4 main_v48 ((fun l r => Host.dotGeneral dot_S100000x16_S16x2_S100000x2_1_0_0_1_n_n none l r) : (⟨S100000x16, .f32⟩ : BufTy).Contents (Elt F) → (⟨S16x2, .f32⟩ : BufTy).Contents (Elt F) → (⟨S100000x2, .f32⟩ : BufTy).Contents (Elt F)),
    nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x2_S3300000x1_S3300000x2_1_0_n_n_0_1_12 x i) : (⟨S100000x2, .f32⟩ : BufTy).Contents (Elt F) → (⟨S3300000x1, .i32⟩ : BufTy).Contents (Elt F) → (⟨S3300000x2, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x2 ![0, 1] bcast_S3300000x1_S3300000x2_0_1 : (⟨S3300000x1, .f32⟩ : BufTy).Contents (Elt F) → (⟨S3300000x2, .f32⟩ : BufTy).Contents (Elt F)),
    binary main_v55 main_v57 main_v58 (mulf : (⟨S3300000x2, .f32⟩ : BufTy).Contents (Elt F) → (⟨S3300000x2, .f32⟩ : BufTy).Contents (Elt F) → (⟨S3300000x2, .f32⟩ : BufTy).Contents (Elt F)),
    nullary main_cst_11 (constant S_ .f32 0x00000000#32),
    unary main_cst_11 main_v59 (broadcastInDim S100000x2 ![] bcast_S_S100000x2 : (⟨S_, .f32⟩ : BufTy).Contents (Elt F) → (⟨S100000x2, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x2_S3300000x1_S3300000x2_1_0_0_1 x i u) : (⟨S100000x2, .f32⟩ : BufTy).Contents (Elt F) → (⟨S3300000x1, .i32⟩ : BufTy).Contents (Elt F) → (⟨S3300000x2, .f32⟩ : BufTy).Contents (Elt F) → (⟨S100000x2, .f32⟩ : BufTy).Contents (Elt F)),
    unary main_arg5 main_v62 (broadcastInDim S1x2 ![1] bcast_S2_S1x2_1 : (⟨S2, .f32⟩ : BufTy).Contents (Elt F) → (⟨S1x2, .f32⟩ : BufTy).Contents (Elt F)),
    unary main_v62 main_v63 (broadcastInDim S100000x2 ![0, 1] bcast_S1x2_S100000x2_0_1 : (⟨S1x2, .f32⟩ : BufTy).Contents (Elt F) → (⟨S100000x2, .f32⟩ : BufTy).Contents (Elt F)),
    binary main_v61 main_v63 main_v64 (addf : (⟨S100000x2, .f32⟩ : BufTy).Contents (Elt F) → (⟨S100000x2, .f32⟩ : BufTy).Contents (Elt F) → (⟨S100000x2, .f32⟩ : BufTy).Contents (Elt F)) ]

/-- log_softmax. -/
abbrev opsL : List (HloOp τ sig (Elt F)) :=
  [ TRef.nullary (TRef.of (T := ⟨S_, .f32⟩) main_call2_cst) (constant S_ .f32 0xFF800000#32),
    TRef.binary (TRef.of (T := ⟨S100000x2, .f32⟩) main_v64) (TRef.of (T := ⟨S_, .f32⟩) main_call2_cst) (TRef.of (T := ⟨S100000, .f32⟩) main_call2_v0) (fun x v => Host.reduce FloatOps.maximumf x v reducesTo_S100000x2_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x2, .f32⟩) main_call2_v4) (broadcastInDim S100000x2 ![0, 1] bcast_S100000x1_S100000x2_0_1),
    TRef.binary (TRef.of (T := ⟨S100000x2, .f32⟩) main_v64) (TRef.of (T := ⟨S100000x2, .f32⟩) main_call2_v4) (TRef.of (T := ⟨S100000x2, .f32⟩) main_call2_v5) subf,
    TRef.unary (TRef.of (T := ⟨S100000x2, .f32⟩) main_call2_v5) (TRef.of (T := ⟨S100000x2, .f32⟩) main_call2_v6) Host.exp,
    TRef.nullary (TRef.of (T := ⟨S_, .f32⟩) main_call2_cst_1) (constant S_ .f32 0x00000000#32),
    TRef.binary (TRef.of (T := ⟨S100000x2, .f32⟩) main_call2_v6) (TRef.of (T := ⟨S_, .f32⟩) main_call2_cst_1) (TRef.of (T := ⟨S100000, .f32⟩) main_call2_v7) (fun x v => Host.reduceAdd x v reducesTo_S100000x2_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x2, .f32⟩) main_call2_v10) (broadcastInDim S100000x2 ![0, 1] bcast_S100000x1_S100000x2_0_1),
    TRef.binary (TRef.of (T := ⟨S100000x2, .f32⟩) main_call2_v5) (TRef.of (T := ⟨S100000x2, .f32⟩) main_call2_v10) (TRef.of (T := ⟨S100000x2, .f32⟩) main_v65) subf ]

theorem ops_split : (ops : List (HloOp τ sig (Elt F))) = opsA ++ (opsW ++ (opsB ++ (opsR ++ (opsC ++ opsL)))) := rfl

/-- The contents after two stretches in a row. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

end Program

set_option maxRecDepth 16384

variable (X : Valuation τ sig (Elt Ideal))

/-- Reads one buffer after a stretch of host operations as the operations' functions of the contents before it. -/
macro "host_read" : tactic => `(tactic| (after_results_simp; try (repeat (first     | rw [StableHlo.nullary_result] | rw [StableHlo.unary_result] | rw [StableHlo.binary_result] | rw [StableHlo.ternary_result] | rw [StableHlo.reshape_result]     | (rw [StableHlo.nullary_result_ne]; rotate_left; decide)     | (rw [StableHlo.unary_result_ne]; rotate_left; decide)     | (rw [StableHlo.binary_result_ne]; rotate_left; decide)     | (rw [StableHlo.ternary_result_ne]; rotate_left; decide)     | (rw [StableHlo.reshape_result_ne]; rotate_left; decide)))))

/-- Contents carried to a buffer's own type and back are the contents. -/
theorem ofBuf_toBuf {T : BufTy} (x : TRef sig T) (v : T.Contents (Elt Ideal)) : x.ofBuf (x.toBuf v) = v := by
  obtain ⟨r, h, h1, h2⟩ := x
  subst h
  rfl

/-! ## The stretches -/

theorem a_src : StableHlo.after (opsA (F := Ideal)) X (Proc.devRef .tc main_v3) = Cert.Spec.srcIdx (F := Ideal) (X (Proc.devRef .tc main_arg1)) := by
  host_read
  unfold Cert.Spec.srcIdx
  rfl

theorem a_dst : StableHlo.after (opsA (F := Ideal)) X (Proc.devRef .tc main_v6) = Cert.Spec.dstIdx (F := Ideal) (X (Proc.devRef .tc main_arg1)) := by
  host_read
  unfold Cert.Spec.dstIdx
  rfl

theorem a_mask : StableHlo.after (opsA (F := Ideal)) X (Proc.devRef .tc main_v12) = Cert.Spec.degMask (F := Ideal) (Cert.Spec.dstIdx (F := Ideal) (X (Proc.devRef .tc main_arg1))) := by
  host_read
  unfold Cert.Spec.degMask Cert.Spec.deg Cert.Spec.colIdx Cert.Spec.dstIdx
  rfl

theorem a_rdeg : StableHlo.after (opsA (F := Ideal)) X (Proc.devRef .tc main_v13) = Cert.Spec.rdeg (F := Ideal) (Cert.Spec.dstIdx (F := Ideal) (X (Proc.devRef .tc main_arg1))) := by
  host_read
  unfold Cert.Spec.rdeg Cert.Spec.deg Cert.Spec.colIdx Cert.Spec.dstIdx
  rfl

theorem a_zero : StableHlo.after (opsA (F := Ideal)) X (Proc.devRef .tc main_cst_2) = Cert.Spec.zeroS (F := Ideal) := by
  host_read
  unfold Cert.Spec.zeroS
  rfl

theorem a_arg0 : StableHlo.after (opsA (F := Ideal)) X (Proc.devRef .tc main_arg0) = X (Proc.devRef .tc main_arg0) := by
  host_read

theorem a_arg2 : StableHlo.after (opsA (F := Ideal)) X (Proc.devRef .tc main_arg2) = X (Proc.devRef .tc main_arg2) := by
  host_read

theorem a_arg3 : StableHlo.after (opsA (F := Ideal)) X (Proc.devRef .tc main_arg3) = X (Proc.devRef .tc main_arg3) := by
  host_read

theorem a_arg4 : StableHlo.after (opsA (F := Ideal)) X (Proc.devRef .tc main_arg4) = X (Proc.devRef .tc main_arg4) := by
  host_read

theorem a_arg5 : StableHlo.after (opsA (F := Ideal)) X (Proc.devRef .tc main_arg5) = X (Proc.devRef .tc main_arg5) := by
  host_read

theorem w_dinv : StableHlo.after (opsW (F := Ideal)) X (Proc.devRef .tc main_v14) = Cert.Spec.whereSel (F := Ideal) (X (Proc.devRef .tc main_v12)) (X (Proc.devRef .tc main_v13)) (X (Proc.devRef .tc main_cst_2)) := by
  host_read
  unfold Cert.Spec.whereSel
  rfl

theorem w_v3 : StableHlo.after (opsW (F := Ideal)) X (Proc.devRef .tc main_v3) = X (Proc.devRef .tc main_v3) := by
  host_read

theorem w_v6 : StableHlo.after (opsW (F := Ideal)) X (Proc.devRef .tc main_v6) = X (Proc.devRef .tc main_v6) := by
  host_read

theorem w_arg0 : StableHlo.after (opsW (F := Ideal)) X (Proc.devRef .tc main_arg0) = X (Proc.devRef .tc main_arg0) := by
  host_read

theorem w_arg2 : StableHlo.after (opsW (F := Ideal)) X (Proc.devRef .tc main_arg2) = X (Proc.devRef .tc main_arg2) := by
  host_read

theorem w_arg3 : StableHlo.after (opsW (F := Ideal)) X (Proc.devRef .tc main_arg3) = X (Proc.devRef .tc main_arg3) := by
  host_read

theorem w_arg4 : StableHlo.after (opsW (F := Ideal)) X (Proc.devRef .tc main_arg4) = X (Proc.devRef .tc main_arg4) := by
  host_read

theorem w_arg5 : StableHlo.after (opsW (F := Ideal)) X (Proc.devRef .tc main_arg5) = X (Proc.devRef .tc main_arg5) := by
  host_read

theorem b_pre : StableHlo.after (opsB (F := Ideal)) X (Proc.devRef .tc main_v46) = (addf (F := Ideal) (φ := .f32) (Cert.Spec.agg16 (F := Ideal) (X (Proc.devRef .tc main_v3)) (X (Proc.devRef .tc main_v6)) (Cert.Spec.normOf' (F := Ideal) (X (Proc.devRef .tc main_v14)) (X (Proc.devRef .tc main_v3)) (X (Proc.devRef .tc main_v6))) (Cert.Spec.lin1 (F := Ideal) (X (Proc.devRef .tc main_arg0)) (X (Proc.devRef .tc main_arg2)))) (broadcastInDim S100000x16 ![0, 1] bcast_S1x16_S100000x16_0_1 (Cert.Spec.row16 (F := Ideal) (X (Proc.devRef .tc main_arg3)))) : (⟨S100000x16, .f32⟩ : BufTy).Contents (Elt Ideal)) := by
  host_read
  unfold Cert.Spec.agg16 Cert.Spec.colIdx Cert.Spec.normOf' Cert.Spec.wrapIdx Cert.Spec.lin1 Cert.Spec.row16
  rfl

theorem b_norm : StableHlo.after (opsB (F := Ideal)) X (Proc.devRef .tc main_v29) = (Cert.Spec.normOf' (F := Ideal) (X (Proc.devRef .tc main_v14)) (X (Proc.devRef .tc main_v3)) (X (Proc.devRef .tc main_v6))) := by
  host_read
  unfold Cert.Spec.normOf' Cert.Spec.wrapIdx
  rfl

theorem b_v3 : StableHlo.after (opsB (F := Ideal)) X (Proc.devRef .tc main_v3) = X (Proc.devRef .tc main_v3) := by
  host_read

theorem b_v6 : StableHlo.after (opsB (F := Ideal)) X (Proc.devRef .tc main_v6) = X (Proc.devRef .tc main_v6) := by
  host_read

theorem b_arg4 : StableHlo.after (opsB (F := Ideal)) X (Proc.devRef .tc main_arg4) = X (Proc.devRef .tc main_arg4) := by
  host_read

theorem b_arg5 : StableHlo.after (opsB (F := Ideal)) X (Proc.devRef .tc main_arg5) = X (Proc.devRef .tc main_arg5) := by
  host_read

theorem r_relu : StableHlo.after (opsR (F := Ideal)) X (Proc.devRef .tc main_v47) = maximumf (X (Proc.devRef .tc main_v46)) (broadcastInDim S100000x16 ![] bcast_S_S100000x16 (constant (F := Ideal) S_ .f32 0x00000000#32)) := by
  host_read
  rfl

theorem r_v3 : StableHlo.after (opsR (F := Ideal)) X (Proc.devRef .tc main_v3) = X (Proc.devRef .tc main_v3) := by
  host_read

theorem r_v6 : StableHlo.after (opsR (F := Ideal)) X (Proc.devRef .tc main_v6) = X (Proc.devRef .tc main_v6) := by
  host_read

theorem r_v29 : StableHlo.after (opsR (F := Ideal)) X (Proc.devRef .tc main_v29) = X (Proc.devRef .tc main_v29) := by
  host_read

theorem r_arg4 : StableHlo.after (opsR (F := Ideal)) X (Proc.devRef .tc main_arg4) = X (Proc.devRef .tc main_arg4) := by
  host_read

theorem r_arg5 : StableHlo.after (opsR (F := Ideal)) X (Proc.devRef .tc main_arg5) = X (Proc.devRef .tc main_arg5) := by
  host_read

theorem c_pre : StableHlo.after (opsC (F := Ideal)) X (Proc.devRef .tc main_v64) = (addf (F := Ideal) (φ := .f32) (Cert.Spec.agg2 (F := Ideal) (X (Proc.devRef .tc main_v3)) (X (Proc.devRef .tc main_v6)) (X (Proc.devRef .tc main_v29)) (Host.dotGeneral (F := Ideal) (φ₁ := .f32) (φ₂ := .f32) dot_S100000x16_S16x2_S100000x2_1_0_0_1_n_n none (X (Proc.devRef .tc main_v47)) (X (Proc.devRef .tc main_arg4)))) (broadcastInDim S100000x2 ![0, 1] bcast_S1x2_S100000x2_0_1 (Cert.Spec.row2 (F := Ideal) (X (Proc.devRef .tc main_arg5)))) : (⟨S100000x2, .f32⟩ : BufTy).Contents (Elt Ideal)) := by
  host_read
  unfold Cert.Spec.agg2 Cert.Spec.colIdx Cert.Spec.wrapIdx Cert.Spec.row2
  rfl

theorem l_out : StableHlo.after (opsL (F := Ideal)) X (Proc.devRef .tc main_v65) = Cert.Spec.logSoftmax (F := Ideal) (X (Proc.devRef .tc main_v64)) := by
  host_read
  simp only [ofBuf_toBuf]
  unfold Cert.Spec.logSoftmax Cert.Spec.rowMax2
  rfl

/-! ## The whole line -/

/-- After the 98 operations the result buffer holds the network of the six argument buffers' contents. -/
theorem result : StableHlo.after (ops (F := Ideal)) X (Proc.devRef .tc main_v65)
    = Cert.Spec.network (F := Ideal) (X (Proc.devRef .tc main_arg0)) (X (Proc.devRef .tc main_arg1)) (X (Proc.devRef .tc main_arg2))
        (X (Proc.devRef .tc main_arg3)) (X (Proc.devRef .tc main_arg4)) (X (Proc.devRef .tc main_arg5)) := by
  rw [ops_split, after_append, after_append, after_append, after_append, after_append]
  rw [l_out, c_pre, r_relu, r_v3, r_v6, r_v29, r_arg4, r_arg5, b_pre, b_norm, b_v3, b_v6, b_arg4, b_arg5,
    w_dinv, w_v3, w_v6, w_arg0, w_arg2, w_arg3, w_arg4, w_arg5,
    a_src, a_dst, a_mask, a_rdeg, a_zero, a_arg0, a_arg2, a_arg3, a_arg4, a_arg5]
  unfold Cert.Spec.network Cert.Spec.tail Cert.Spec.logSoftmaxBias Cert.Spec.hidden Cert.Spec.normOf Cert.Spec.dinv
  rfl

set_option maxRecDepth 8192 in
set_option maxHeartbeats 39200000 in
/-- Every weakly fair execution of the reference terminates with its result at the network of the arguments'
    launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65)
        = Cert.Spec.network (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (result _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefRun

end
-- ==== Proof.lean ====
/-
  The certificate of a two-layer graph convolution network, log_softmax(Â · relu(Â · (x W1) + b1) W2 + b2) with Â the
  symmetrically normalised adjacency (self-loops added) given as an edge list: a program of three kernel regions
  — x · W1, relu(· + b1) · W2 and log_softmax(· + b2), each tiled over ten blocks of 10000 rows — with the gathers
  and scatter-adds of the two aggregations done by host operations between them, against a reference that does
  everything by host operations.

  Over the extended reals the two programs are the same function of the six arguments (Spec.lean `network`):
  the index arithmetic, the gathers and the scatter-adds are the same operations on the same operands in both
  and are never opened; a region's matrix product into a zero accumulator is the host's contraction, entry by
  entry the sum over k of products; a change of float format is the identity; the row maximum and the row sum of
  the kernel's log_softmax are the host's reductions (the host's maximum with −∞ and its sum from the zero word
  change nothing); a bias reshaped to one row reads the entries its broadcast to one row reads. No law of the
  extended reals beyond 0 + x = x and max(−∞, M) = M for M ≥ −∞ is used, so finiteness of the inputs is not needed.

  The three frames: the kernel programs' are the generated ones; the reference's is its run (RefRun.lean) with the
  result dropped. The ideal pass rewrote nothing, so the idealization conjunct is trivial. The algebraic conjunct:
  the kernel program's run with its final buffers named (KRun.lean) and the result buffer read back to the network
  (KValue.lean), the reference's run (RefRun.lean), on arguments that agree.
-/
import proofs.«153009_j22462678958350_1_alg».proof.Defs
import proofs.«153009_j22462678958350_1_alg».proof.Proof.Gen.Kernel
import proofs.«153009_j22462678958350_1_alg».proof.Proof.Gen.Kernel.Skeleton
import proofs.«153009_j22462678958350_1_alg».proof.Proof.Gen.Kernel.Launch
import proofs.«153009_j22462678958350_1_alg».proof.Proof.Gen.Kernel.Points
import proofs.«153009_j22462678958350_1_alg».proof.Proof.Gen.Kernel.Frame
import proofs.«153009_j22462678958350_1_alg».proof.Proof.Gen.KernelIdeal
import proofs.«153009_j22462678958350_1_alg».proof.Proof.Gen.KernelIdeal.Skeleton
import proofs.«153009_j22462678958350_1_alg».proof.Proof.Gen.KernelIdeal.Launch
import proofs.«153009_j22462678958350_1_alg».proof.Proof.Gen.KernelIdeal.Points
import proofs.«153009_j22462678958350_1_alg».proof.Proof.Gen.KernelIdeal.Frame
import proofs.«153009_j22462678958350_1_alg».proof.Proof.Gen.ReferenceIdeal
import proofs.«153009_j22462678958350_1_alg».proof.Proof.Gen.Pre_finite_inputs
import proofs.«153009_j22462678958350_1_alg».proof.Proof.KValue
import proofs.«153009_j22462678958350_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run m ρ)

/-- Both programs end with the network of their arguments in the result buffer, and the arguments agree. -/
theorem algebraic : Cert.algebraic_KernelIdeal_ReferenceIdeal := by
  intro m ρ m' ρ' _ hagree
  refine ⟨fun c => Cert.Spec.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.KRun.run_all m ρ)
    exact ⟨(h c _ (Cert.KernelIdeal.Gen.mem_uc Cert.KernelIdeal.main_v60 (by decide))).trans (Cert.KernelIdeal.KValue.out_eq m ρ c),
      (h c _ (Cert.KernelIdeal.Gen.mem_uc Cert.KernelIdeal.main_arg0 (by decide))).trans (Cert.KernelIdeal.Gen.W8_main_arg0 m ρ c),
      (h c _ (Cert.KernelIdeal.Gen.mem_uc Cert.KernelIdeal.main_arg1 (by decide))).trans (Cert.KernelIdeal.Gen.W8_main_arg1 m ρ c),
      (h c _ (Cert.KernelIdeal.Gen.mem_uc Cert.KernelIdeal.main_arg2 (by decide))).trans (Cert.KernelIdeal.Gen.W8_main_arg2 m ρ c),
      (h c _ (Cert.KernelIdeal.Gen.mem_uc Cert.KernelIdeal.main_arg3 (by decide))).trans (Cert.KernelIdeal.Gen.W8_main_arg3 m ρ c),
      (h c _ (Cert.KernelIdeal.Gen.mem_uc Cert.KernelIdeal.main_arg4 (by decide))).trans (Cert.KernelIdeal.Gen.W8_main_arg4 m ρ c),
      (h c _ (Cert.KernelIdeal.Gen.mem_uc Cert.KernelIdeal.main_arg5 (by decide))).trans (Cert.KernelIdeal.Gen.W8_main_arg5 m ρ c)⟩
  · refine (θ_run Cert.ReferenceIdeal.defs _ _).mono (fun r h c => ⟨(h c).1.trans ?_, (h c).2⟩)
      (Cert.ReferenceIdeal.RefRun.run m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
